-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v8 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v8 main_v16
  main_v17

def fn {F : FTy → Type} [FloatOps F] (main_arg0 : FVec F S8192x256 .f32) (main_arg1 : FVec F S8192x256 .f32) (main_arg2 : IVec S8192 32) (main_arg3 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := mulf main_arg0 main_arg0
  let main_cst_2 : FVec F S_ .f32 := constant S_ .f32 0x00000000#32
  let main_v10 : FVec F S8192 .f32 := (fun x v => Host.reduceAdd x v reducesTo_S8192x256_S8192_d1 h_S_) main_v9 main_cst_2
  let main_v11 : FVec F S8192x256 .f32 := mulf main_arg1 main_arg1
  let main_cst_3 : FVec F S_ .f32 := constant S_ .f32 0x00000000#32
  let main_v12 : FVec F S8192 .f32 := (fun x v => Host.reduceAdd x v reducesTo_S8192x256_S8192_d1 h_S_) main_v11 main_cst_3
  let main_v13 : FVec F S8192 .f32 := mulf main_v10 main_v12
  let main_cst_4 : FVec F S_ .f32 := constant S_ .f32 0x00000000#32
  let main_v14 : FVec F S8192 .f32 := broadcastInDim S8192 ![] bcast_S_S8192 main_cst_4
  let main_v15 : IVec S8192 1 := cmpf .une main_v13 main_v14
  let main_c_5 : IVec S_ 1 := constantI S_ 1 1#1
  fn_part1 (F := F) main_v8 main_v15 main_c_5
-- ==== Kernel.lean ====
abbrev S8192x256 : Shape := ⟨2, ![8192, 256]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S1024x256 : Shape := ⟨2, ![1024, 256]⟩
abbrev S1x1024 : Shape := ⟨2, ![1, 1024]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 20
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .i32⟩
  | .hbm, ⟨3, _⟩ => ⟨S8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S1x8192, .f32⟩
  | .hbm, ⟨15, _⟩ => ⟨S1x8192, .i32⟩
  | .hbm, ⟨16, _⟩ => ⟨S1x8192, .i32⟩
  | .hbm, ⟨17, _⟩ => ⟨S8192x1, .f32⟩
  | .hbm, ⟨18, _⟩ => ⟨S_, .f32⟩
  | .hbm, ⟨19, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x256_S8192_d1 : S8192x256.ReducesTo [1] S8192
  h_S_ : 0 < S_.numel
  bcast_S_S8192 : S_.BroadcastsInDim S8192 (![] : Fin 0 → Fin S8192.rank)
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  shapeCasts_S1024x1_S1024x1 : S1024x1.ShapeCasts S1024x1
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .i32⟩
  | .hbm, ⟨3, _⟩ => ⟨S8192, .i32⟩
  | .hbm, ⟨4, _⟩ => ⟨S256x8192, .f32⟩
  | .hbm, ⟨5, _⟩ => ⟨S8192x8192, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.Spec.lean ====
/-
  The loss as a function of the four arrays, and the two algebraic facts that join the kernel's arrangement of
  it to the reference's.

  For source rows a(R, ·), target rows b(Q, ·), labels ls, lt and a per-row scale, the similarity of the pair
  (R, Q) is sim(R, Q) = ∑ₖ a(R, k) · b(Q, k); the pair's loss entry is 1 − res when the labels agree and
  max res 0 otherwise, where res is the scaled similarity; a row's loss is the sum of its 8192 entries and the
  loss is the sum of the rows' losses.  The kernel scales by multiplying with the reciprocal 1 / d(R) of the
  row's denominator, the reference by dividing by d(R): for d(R) ≠ 0 the quotient on the extended reals is the
  product with the inverse, so the two agree whatever sim(R, Q) is.
-/
import Idealize.ShloMosaic.PureOps.Ideal
import Idealize.ShloMosaic.PureOps.Ideal.Laws
import Idealize.ShloMosaic.Lib.ValueIdx
import proofs.«151123_j30434138259836_2_alg».proof.Proof.LibSumBlocks

noncomputable section

open scoped BigOperators

namespace SimLoss

open Idealize.ShloMosaic Idealize.ShloMosaic.ValueIdx

/-- The [8192, 256] matrices, the [8192] vectors. -/
abbrev Mat : Shape := ⟨2, ![8192, 256]⟩
abbrev Vec1 : Shape := ⟨1, ![8192]⟩

/-- The word of the float 1.0 and of the float 0.0, as extended reals. -/
abbrev one : EReal := Ideal.ofBits .f32 0x3F800000#32
abbrev zero : EReal := Ideal.ofBits .f32 0x00000000#32

theorem one_eq : one = 1 := by
  simp [one, Ideal.ofBits, Ideal.ieee, -EReal.coe_mul]; norm_num

/-- One pair's loss from the label comparison and the scaled similarity. -/
def entry (c : BitVec 1) (res : EReal) : EReal := Scalar.select c (one - res) (max res zero)

/-- The similarity of source row R and target row Q. -/
def sim (a b : Mat.Idx → EReal) (R Q : Fin 8192) : EReal := ∑ k : Fin 256, a (ix2 R k) * b (ix2 Q k)

/-- Row R's loss with the similarity MULTIPLIED by the row's scale inv(R). -/
def rowLossMul (a b : Mat.Idx → EReal) (ls lt : Vec1.Idx → BitVec 32) (inv : Vec1.Idx → EReal) (R : Fin 8192) : EReal :=
  ∑ Q : Fin 8192, entry (IntOp.cmpi .eq (ls (ix1 R)) (lt (ix1 Q))) (sim a b R Q * inv (ix1 R))

/-- Row R's loss with the similarity DIVIDED by the row's denominator d(R). -/
def rowLossDiv (a b : Mat.Idx → EReal) (ls lt : Vec1.Idx → BitVec 32) (d : Vec1.Idx → EReal) (R : Fin 8192) : EReal :=
  ∑ Q : Fin 8192, entry (IntOp.cmpi .eq (ls (ix1 R)) (lt (ix1 Q))) (Ideal.div (sim a b R Q) (d (ix1 R)))

/-- Off zero the quotient is the product with the reciprocal: s · (1 / d) = s / d for every extended real s. -/
theorem mul_recip_eq_div (s d : EReal) (hd : d ≠ 0) : s * Ideal.div one d = Ideal.div s d := by
  unfold Ideal.div
  rw [if_neg hd, if_neg hd, one_eq, one_mul]

/-- So with nonzero denominators the two row losses are one. -/
theorem rowLossMul_recip (a b : Mat.Idx → EReal) (ls lt : Vec1.Idx → BitVec 32) (d : Vec1.Idx → EReal)
    (hd : ∀ i, d i ≠ 0) (R : Fin 8192) :
    rowLossMul a b ls lt (fun i => Ideal.div one (d i)) R = rowLossDiv a b ls lt d R := by
  unfold rowLossMul rowLossDiv
  exact Finset.sum_congr rfl fun Q _ => by rw [mul_recip_eq_div _ _ (hd _)]

/-- A sum over the 8192 columns read as eight blocks of 1024 columns. -/
theorem sum_col_blocks (g : Fin 8192 → EReal) :
    ∑ i : Fin 8, ∑ q : Fin 1024, g ⟨1024 * i.val + q.val, by have := i.isLt; have := q.isLt; omega⟩ = ∑ Q : Fin 8192, g Q := by
  have h := SumBlocks.sum_blocks (A := 8) (B := 1024) (fun n : Fin (8 * 1024) => g ⟨n.val, n.isLt⟩)
  refine Eq.trans ?_ (h.symm.trans ?_)
  · exact Finset.sum_congr rfl fun i _ => Finset.sum_congr rfl fun q _ => congrArg g (Fin.ext (by
      show 1024 * i.val + q.val = i.val * 1024 + q.val
      omega))
  · rfl

end SimLoss

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Tile.lean ====
/-
  One grid point's arithmetic, read at an index on the extended reals.

  At a grid point the body holds a [1024, 256] block x0 of the source, a [1024, 256] block x1 of the target, the
  [1, 1024] rows x2, x3 of the two label vectors, the [1, 1024] row x4 of the per-row scales and the running
  [1024, 1] column xo of partial row losses.  It forms the [1024, 1024] tile of similarities x0 · x1ᵀ (a change
  of float format is the identity here, and a product into the zero accumulator is the plain sum over the 256
  shared coordinates), scales row r by x4(0, r), turns each scaled similarity into a loss entry by the labels
  x2(0, r) and x3(0, q), sums each row of the tile over its 1024 columns and adds the sums to xo.  So at row r
  the new column holds  xo(r, 0) + ∑_q entry (x2(0, r) = x3(0, q)) ((∑ₖ x0(r, k) · x1(q, k)) · x4(0, r)).
-/
import proofs.«151123_j30434138259836_2_alg».proof.Proof.Gen.KernelIdeal.Skeleton
import proofs.«151123_j30434138259836_2_alg».proof.Proof.Spec
import proofs.«151123_j30434138259836_2_alg».proof.Proof.LibRowSum
import proofs.«151123_j30434138259836_2_alg».proof.Proof.LibContract
import proofs.«151123_j30434138259836_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- A [1, 1024] row stood up as a [1024, 1] column. -/
def col {α : Type} (v : S1x1024.Idx → α) : S1024x1.Idx → α :=
  transpose S1024x1 [1, 0] (shapeCast S1x1024 v shapeCasts_S1x1024_S1x1024) transposes_S1x1024_p1_0_S1024x1

/-- The column's entry of row r is the row's entry of column r. -/
theorem col_apply {α : Type} (v : S1x1024.Idx → α) (r : Fin 1024) :
    col v (ix2 r (0 : Fin 1)) = v (ix2 (0 : Fin 1) r) := by
  unfold col
  rw [shapeCast_self]
  exact transpose_apply _ v _ _ (ix2 (0 : Fin 1) r) (fun b => match b with | ⟨0, _⟩ => rfl | ⟨1, _⟩ => rfl)

/-- The tile of similarities: the source block times the transposed target block, into the zero accumulator. -/
def simTile (x0 x1 : FVec Ideal S1024x256 .f32) : FVec Ideal S1024x1024 .f32 :=
  matmul dot_S1024x256_S256x1024_S1024x1024_1_0_0_1_n_n none (truncf .bf16 x0 bitsLt_bf16_f32)
    (transpose S256x1024 [1, 0] (truncf .bf16 x1 bitsLt_bf16_f32) transposes_S1024x256_p1_0_S256x1024)
    (constant S1024x1024 .f32 0x00000000#32)

theorem lhs_free (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl

theorem rhs_free (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The transposed target block at (k, q) is the block at (q, k). -/
theorem transposed_apply (v : S1024x256.Idx → EReal) (k : Fin 256) (q : Fin 1024) :
    transpose S256x1024 [1, 0] v transposes_S1024x256_p1_0_S256x1024 (ix2 k q) = v (ix2 q k) :=
  transpose_apply _ v _ _ (ix2 q k) (fun b => match b with | ⟨0, _⟩ => rfl | ⟨1, _⟩ => rfl)

/-- The tile at (r, q) is the sum over the 256 shared coordinates of source row r times target row q. -/
theorem simTile_apply (x0 x1 : FVec Ideal S1024x256 .f32) (r q : Fin 1024) :
    simTile x0 x1 (ix2 r q) = ∑ k : Fin 256, x0 (ix2 r k) * x1 (ix2 q k) := by
  unfold simTile
  simp only [matmul]
  rw [Ideal.matmul_constant_zero_apply]
  refine (Contract2.sum_contr_eq_sum_fin dot_S1024x256_S256x1024_S1024x1024_1_0_0_1_n_n rfl rfl rfl rfl lhs_free rhs_free _ _ (ix2 r q)).trans ?_
  refine Finset.sum_congr rfl fun k _ => ?_
  show x0 (ix2 r k) * transpose S256x1024 [1, 0] x1 transposes_S1024x256_p1_0_S256x1024 (ix2 k q) = _
  rw [transposed_apply]

/-- Each row of the tile multiplied by the row's entry of a column. -/
def scaled (s : FVec Ideal S1024x1024 .f32) (inv : FVec Ideal S1024x1 .f32) : FVec Ideal S1024x1024 .f32 :=
  mulf s (broadcastTo S1024x1024 inv broadcasts_S1024x1_S1024x1024)

theorem scaled_apply (s : FVec Ideal S1024x1024 .f32) (inv : FVec Ideal S1024x1 .f32) (r q : Fin 1024) :
    scaled s inv (ix2 r q) = s (ix2 r q) * inv (ix2 r (0 : Fin 1)) := by
  unfold scaled
  show s (ix2 r q) * broadcastTo S1024x1024 inv broadcasts_S1024x1_S1024x1024 (ix2 r q) = _
  rw [broadcastTo_a1_ab_apply]

/-- The tile of label agreements: the source labels down the rows against the target labels along the columns. -/
def same (a : IVec S1024x1 32) (b : IVec S1x1024 32) : IVec S1024x1024 1 :=
  cmpi .eq (broadcastTo S1024x1024 a broadcasts_S1024x1_S1024x1024)
    (broadcastTo S1024x1024 (shapeCast S1x1024 b shapeCasts_S1x1024_S1x1024) broadcasts_S1x1024_S1024x1024)

theorem same_apply (a : IVec S1024x1 32) (b : IVec S1x1024 32) (r q : Fin 1024) :
    same a b (ix2 r q) = IntOp.cmpi .eq (a (ix2 r (0 : Fin 1))) (b (ix2 (0 : Fin 1) q)) := by
  unfold same
  rw [shapeCast_self]
  show IntOp.cmpi .eq (broadcastTo S1024x1024 a broadcasts_S1024x1_S1024x1024 (ix2 r q))
    (broadcastTo S1024x1024 b broadcasts_S1x1024_S1024x1024 (ix2 r q)) = _
  rw [broadcastTo_a1_ab_apply, broadcastTo_1b_ab_apply]

/-- The tile of loss entries. -/
def lossTile (c : IVec S1024x1024 1) (res : FVec Ideal S1024x1024 .f32) : FVec Ideal S1024x1024 .f32 :=
  select c (subf (broadcast S1024x1024 (Scalar.ofBits .f32 0x3F800000#32)) res)
    (maximumf res (broadcast S1024x1024 (Scalar.ofBits .f32 0x00000000#32)))

theorem lossTile_apply (c : IVec S1024x1024 1) (res : FVec Ideal S1024x1024 .f32) (i : S1024x1024.Idx) :
    lossTile c res i = SimLoss.entry (c i) (res i) := rfl

/-- The running column plus the row sums of a tile. -/
def accum (xo : FVec Ideal S1024x1 .f32) (l : FVec Ideal S1024x1024 .f32) : FVec Ideal S1024x1 .f32 :=
  addf (shapeCast S1024x1 xo shapeCasts_S1024x1_S1024x1)
    (shapeCast S1024x1 (multiReduction .add [1] S1024 l 0x00000000#32 reduces_S1024x1024_S1024 (.inl rfl) rfl) shapeCasts_S1024_S1024x1)

theorem accum_apply (xo : FVec Ideal S1024x1 .f32) (l : FVec Ideal S1024x1024 .f32) (r : Fin 1024) :
    accum xo l (ix2 r (0 : Fin 1)) = xo (ix2 r (0 : Fin 1)) + ∑ q : Fin 1024, l (ix2 r q) := by
  unfold accum
  rw [shapeCast_self]
  show xo (ix2 r (0 : Fin 1)) + shapeCast S1024x1 (multiReduction .add [1] S1024 l 0x00000000#32 reduces_S1024x1024_S1024 (.inl rfl) rfl) shapeCasts_S1024_S1024x1 (ix2 r (0 : Fin 1)) = _
  rw [shapeCast_a_a1_apply]
  exact congrArg (xo (ix2 r (0 : Fin 1)) + ·) (multiReduction_add_rows_apply l _ _ _ r)

/-- The body's one accumulating store is these stages composed. -/
theorem pay_eq (x0 x1 : Vec Ideal S1024x256 .f32) (x2 x3 : Vec Ideal S1x1024 .i32) (x4 : Vec Ideal S1x1024 .f32)
    (xo : Vec Ideal S1024x1 .f32) :
    k0_pay2 (F := Ideal) x0 x1 x2 x3 x4 xo = accum xo (lossTile (same (col x2) x3) (scaled (simTile x0 x1) (col x4))) := rfl

/-- The new column at row r: the old entry plus the row's 1024 loss entries of this tile. -/
theorem pay_apply (x0 x1 : Vec Ideal S1024x256 .f32) (x2 x3 : Vec Ideal S1x1024 .i32) (x4 : Vec Ideal S1x1024 .f32)
    (xo : Vec Ideal S1024x1 .f32) (r : Fin 1024) :
    k0_pay2 (F := Ideal) x0 x1 x2 x3 x4 xo (ix2 r (0 : Fin 1)) = xo (ix2 r (0 : Fin 1))
      + ∑ q : Fin 1024, SimLoss.entry (IntOp.cmpi .eq (x2 (ix2 (0 : Fin 1) r)) (x3 (ix2 (0 : Fin 1) q)))
          ((∑ k : Fin 256, x0 (ix2 r k) * x1 (ix2 q k)) * x4 (ix2 (0 : Fin 1) r)) := by
  rw [pay_eq, accum_apply]
  refine congrArg (_ + ·) (Finset.sum_congr rfl fun q _ => ?_)
  rw [lossTile_apply, same_apply, scaled_apply, simTile_apply, col_apply, col_apply]

end Cert.KernelIdeal.Tile

end
-- ==== Proof.Pieces.lean ====
/-
  What one run of the body leaves in the output block's buffer, in each of its two cases.

  At a grid point whose column-block coordinate is zero the body first stores the zero column, reads it back and
  stores the accumulating payload over it; at every other point it stores the accumulating payload over the
  column the point before left.  Each store covers the whole [1024, 1] block and each load reads a whole buffer,
  so the block ends at the payload of the loaded blocks: over the zero column in the first case, over the
  running column in the second.  For any float values.
-/
import proofs.«151123_j30434138259836_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A point that continues a row block: the running column xo goes through the accumulating payload. -/
theorem out_B (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1024 .i32) (h4 : a4.IsWhole)
    (a5 : Memref sig .tc .vmem S1x1024 .i32) (h5 : a5.IsWhole) (a6 : Memref sig .tc .vmem S1x1024 .f32) (h6 : a6.IsWhole)
    (a7 : Memref sig .tc .vmem S1024x1 .f32) (h7 : a7.IsWhole) (hc : ¬cond0_0 i)
    (x0 x1 : Vec F S1024x256 .f32) (x2 x3 : Vec F S1x1024 .i32) (x4 : Vec F S1x1024 .f32) (xo : Vec F S1024x1 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  rw [View.canon_unit_zero hz]
  simp only [View.readAt_eq_ld, h2.read_unread, h3.read_unread, h4.read_unread, h5.read_unread, h6.read_unread,
    h7.read_unread, View.ld_unit_zero (S := S1024x256) hz, View.ld_unit_zero (S := S1x1024) hz,
    View.ld_unit_zero (S := S1024x1) hz]

/-- A point that starts a row block: the zero column goes through the accumulating payload. -/
theorem out_A (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1024 .i32) (h4 : a4.IsWhole)
    (a5 : Memref sig .tc .vmem S1x1024 .i32) (h5 : a5.IsWhole) (a6 : Memref sig .tc .vmem S1x1024 .f32) (h6 : a6.IsWhole)
    (a7 : Memref sig .tc .vmem S1024x1 .f32) (h7 : a7.IsWhole) (hc : cond0_0 i)
    (x0 x1 : Vec F S1024x256 .f32) (x2 x3 : Vec F S1x1024 .i32) (x4 : Vec F S1x1024 .f32) :
    out0_A_5 c i a2 h2 a3 h3 a4 h4 a5 h5 a6 h6 a7 h7 hc x0 x1 x2 x3 x4 = k0_pay2 x0 x1 x2 x3 x4 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread,
    View.ld_unit_zero (S := S1024x256) hz, View.ld_unit_zero (S := S1x1024) hz]

end Cert.KernelIdeal.Pieces

end
-- ==== Proof.Blocks.lean ====
/-
  The blocks the body is given at a grid point, read from the four argument arrays.

  The grid is 8 × 8, the points numbered row-major: point t has row-block coordinate t / 8 and column-block
  coordinate t % 8.  The source block and the rows of the source labels and of the per-row scales move with the
  row-block coordinate, the target block and the row of the target labels with the column-block coordinate.  So
  entry (r, k) of the source block at t is the source at (1024 · (t / 8) + r, k), entry (q, k) of the target
  block the target at (1024 · (t % 8) + q, k), and likewise for the three [1, 1024] rows, which are cut from
  [1, 8192] views of the label vectors and of the vector of reciprocals that the lines before the call compute.
-/
import proofs.«151123_j30434138259836_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has 64 points. -/
theorem tlt (t : Fin cfg0.N) : t.val < 64 := lt_of_lt_of_eq t.isLt N_0

/-- The array row that row r of the point's row block is. -/
def rowIdx (t : Fin cfg0.N) (r : Fin 1024) : Fin 8192 := ⟨1024 * (t.val / 8) + r.val, by have := tlt t; omega⟩
/-- The array row (of the target) that row q of the point's column block is. -/
def colIdx (t : Fin cfg0.N) (q : Fin 1024) : Fin 8192 := ⟨1024 * (t.val % 8) + q.val, by have := tlt t; omega⟩

/-- The block indices of the six windows at every point, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8
    ∧ win0_5.index t (0 : Fin 2) = t.val / 8 ∧ win0_5.index t (1 : Fin 2) = 0 :=
  (by decide +kernel : ∀ t : Fin grid0.N, _)

/-! ## What the lines before the call leave in the three [1, 8192] arrays -/

/-- The source labels viewed as one row. -/
theorem V_lsrc (c : Dev nD) : (V m c main_v8 : S1x8192.Idx → BitVec 32)
    = shapeCast S1x8192 (m ((c : Thread nD τ).loc main_arg2)) shapeCasts_S8192_S1x8192 := by
  show StableHlo.after hostOps0 (fun b => m (c, b)) (Proc.devRef .tc main_v8) = _
  after_results <;> rfl

/-- The target labels viewed as one row. -/
theorem V_ltgt (c : Dev nD) : (V m c main_v9 : S1x8192.Idx → BitVec 32)
    = shapeCast S1x8192 (m ((c : Thread nD τ).loc main_arg3)) shapeCasts_S8192_S1x8192 := by
  show StableHlo.after hostOps0 (fun b => m (c, b)) (Proc.devRef .tc main_v9) = _
  after_results <;> rfl

/-- The denominators: the product of the two rows' sums of squares. -/
def den (a b : S8192x256.Idx → F .f32) : S8192.Idx → F .f32 :=
  mulf (Host.reduceAdd (mulf a a) (constant S_ .f32 0x00000000#32) reducesTo_S8192x256_S8192_d1 h_S_)
    (Host.reduceAdd (mulf b b) (constant S_ .f32 0x00000000#32) reducesTo_S8192x256_S8192_d1 h_S_)

/-- The reciprocals of the denominators. -/
def recip (a b : S8192x256.Idx → F .f32) : S8192.Idx → F .f32 :=
  Host.divf (broadcastInDim S8192 ![] bcast_S_S8192 (constant S_ .f32 0x3F800000#32)) (den a b)

/-- The reciprocals viewed as one row. -/
theorem V_recip (c : Dev nD) : (V m c main_v7 : S1x8192.Idx → F .f32)
    = shapeCast S1x8192 (recip (m ((c : Thread nD τ).loc main_arg0)) (m ((c : Thread nD τ).loc main_arg1))) shapeCasts_S8192_S1x8192 := by
  show StableHlo.after hostOps0 (fun b => m (c, b)) (Proc.devRef .tc main_v7) = _
  after_results <;> rfl

/-- A vector viewed as one row reads, at (0, n), the vector at n. -/
theorem row_apply {α : Type} (x : S8192.Idx → α) (n : Fin 8192) :
    shapeCast S1x8192 x shapeCasts_S8192_S1x8192 (ix2 (0 : Fin 1) n) = x (ix1 n) :=
  shapeCast_apply x _ _ _ (by
    rw [Shape.rowMajor_val_two, Shape.rowMajor_val_one]
    show n.val = 0 * 8192 + n.val
    omega)

/-! ## The five input blocks at a point -/

/-- The source block. -/
theorem src_apply (c : Dev nD) (t : Fin cfg0.N) (r : Fin 1024) (k : Fin 256) :
    (iblk m c 0 t : S1024x256.Idx → F .f32) (ix2 r k) = m ((c : Thread nD τ).loc main_arg0) (ix2 (rowIdx t r) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 256 + 1 * k.val = k.val; rw [e1]; omega

/-- The target block. -/
theorem tgt_apply (c : Dev nD) (t : Fin cfg0.N) (q : Fin 1024) (k : Fin 256) :
    (iblk m c 1 t : S1024x256.Idx → F .f32) (ix2 q k) = m ((c : Thread nD τ).loc main_arg1) (ix2 (colIdx t q) k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = 1024 * (t.val % 8) + q.val; rw [e0]; omega
  | ⟨1, _⟩ => show win0_1.index t (1 : Fin 2) * 256 + 1 * k.val = k.val; rw [e1]; omega

/-- The row of source labels. -/
theorem lsrc_apply (c : Dev nD) (t : Fin cfg0.N) (r : Fin 1024) :
    (iblk m c 2 t : S1x1024.Idx → BitVec 32) (ix2 (0 : Fin 1) r) = m ((c : Thread nD τ).loc main_arg2) (ix1 (rowIdx t r)) := by
  obtain ⟨-, -, -, -, e0, e1, -⟩ := idx_facts t
  unfold iblk
  rw [View.read_apply]
  show (V m c main_v8 : S1x8192.Idx → BitVec 32) _ = _
  rw [V_lsrc]
  refine Eq.trans ?_ (row_apply _ (rowIdx t r))
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * r.val = 1024 * (t.val / 8) + r.val; rw [e1]; omega

/-- The row of target labels. -/
theorem ltgt_apply (c : Dev nD) (t : Fin cfg0.N) (q : Fin 1024) :
    (iblk m c 3 t : S1x1024.Idx → BitVec 32) (ix2 (0 : Fin 1) q) = m ((c : Thread nD τ).loc main_arg3) (ix1 (colIdx t q)) := by
  obtain ⟨-, -, -, -, -, -, e0, e1, -⟩ := idx_facts t
  unfold iblk
  rw [View.read_apply]
  show (V m c main_v9 : S1x8192.Idx → BitVec 32) _ = _
  rw [V_ltgt]
  refine Eq.trans ?_ (row_apply _ (colIdx t q))
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * q.val = 1024 * (t.val % 8) + q.val; rw [e1]; omega

/-- The row of reciprocals. -/
theorem recip_apply (c : Dev nD) (t : Fin cfg0.N) (r : Fin 1024) :
    (iblk m c 4 t : S1x1024.Idx → F .f32) (ix2 (0 : Fin 1) r)
      = recip (m ((c : Thread nD τ).loc main_arg0)) (m ((c : Thread nD τ).loc main_arg1)) (ix1 (rowIdx t r)) := by
  obtain ⟨-, -, -, -, -, -, -, -, e0, e1, -⟩ := idx_facts t
  unfold iblk
  rw [View.read_apply]
  show (V m c main_v7 : S1x8192.Idx → F .f32) _ = _
  rw [V_recip]
  refine Eq.trans ?_ (row_apply _ (rowIdx t r))
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * r.val = 1024 * (t.val / 8) + r.val; rw [e1]; omega

end Cert.KernelIdeal.Blocks

end
-- ==== Proof.LibBlockRuns.lean ====
/-
  A running sum that restarts every `B` points.

  Let `o` and `T` be sequences in an additive commutative monoid, and suppose that at every point `n` below `N`
  the value `o n` is `0 + T n` when `n` is a multiple of `B`, and `o (n − 1) + T n` otherwise.  Then `o n` is
  the sum of `T` over the run of `n`: the points from the last multiple of `B` at or before `n` up to `n`.  In
  particular, at the last point `B · c + (B − 1)` of run `c` the value is the sum of `T` over the `B` points of
  the run.  The proof is an induction on `n`: a multiple of `B` starts a run of one point, and any other point
  extends the run of its predecessor, which has the same quotient by `B`.
-/
import Mathlib.Algebra.BigOperators.Intervals
import Mathlib.Algebra.BigOperators.Fin
import Mathlib.Order.Interval.Finset.Nat
import Mathlib.Algebra.Order.Interval.Finset.SuccPred

open scoped BigOperators

namespace Idealize.ShloMosaic.BlockRuns

variable {α : Type*} [AddCommMonoid α]

/-- A sequence that restarts at the multiples of `B` and otherwise adds to its predecessor is, at each point,
    the sum of the summands over the point's run. -/
theorem run_sum {B : ℕ} (N : ℕ) (o T : ℕ → α)
    (h0 : ∀ n < N, n % B = 0 → o n = 0 + T n)
    (hs : ∀ n < N, n % B ≠ 0 → o n = o (n - 1) + T n) :
    ∀ n < N, o n = ∑ i ∈ Finset.Icc (B * (n / B)) n, T i := by
  intro n
  induction n with
  | zero =>
    intro hn
    rw [h0 0 hn (Nat.zero_mod B), zero_add, Nat.zero_div, Nat.mul_zero, Finset.Icc_self, Finset.sum_singleton]
  | succ n ih =>
    intro hn
    by_cases hm : (n + 1) % B = 0
    · rw [h0 (n + 1) hn hm, zero_add, Nat.mul_div_cancel' (Nat.dvd_of_mod_eq_zero hm), Finset.Icc_self,
        Finset.sum_singleton]
    · have hdiv : (n + 1) / B = n / B := Nat.succ_div_of_not_dvd (fun hd => hm (Nat.mod_eq_zero_of_dvd hd))
      rw [hs (n + 1) hn hm, Nat.add_sub_cancel, ih (Nat.lt_of_succ_lt hn), hdiv,
        Finset.sum_Icc_succ_top (le_trans (Nat.mul_div_le n B) (Nat.le_succ n))]

/-- At the last point of run `c` the sequence is the sum of the summands over the `B` points of the run. -/
theorem run_end {B : ℕ} (hB : 0 < B) (N : ℕ) (o T : ℕ → α)
    (h0 : ∀ n < N, n % B = 0 → o n = 0 + T n)
    (hs : ∀ n < N, n % B ≠ 0 → o n = o (n - 1) + T n)
    (c : ℕ) (hc : B * c + (B - 1) < N) :
    o (B * c + (B - 1)) = ∑ i : Fin B, T (B * c + i.val) := by
  have hdiv : (B * c + (B - 1)) / B = c := by
    rw [Nat.mul_add_div hB, Nat.div_eq_of_lt (Nat.sub_lt hB Nat.one_pos), Nat.add_zero]
  have hlen : B * c + (B - 1) + 1 - B * c = B := by omega
  rw [run_sum N o T h0 hs _ hc, hdiv, ← Finset.Ico_add_one_right_eq_Icc, Finset.sum_Ico_eq_sum_range, hlen,
    Fin.sum_univ_eq_sum_range (fun i => T (B * c + i))]

end Idealize.ShloMosaic.BlockRuns
-- ==== Proof.Accum.lean ====
/-
  The column of partial row losses, point by point, and its closed form when it is written back.

  Along a row block (eight consecutive points) the output column starts from the zero column and gains, at each
  point, the row sums of that point's [1024, 1024] tile of loss entries.  After the eighth point row r of the
  column therefore holds the sum, over the eight column blocks and the 1024 columns of each, of the loss entries
  of array row 1024 · (t / 8) + r: the row's whole loss over the 8192 target rows.  Only associativity and
  commutativity of the extended reals' addition are used.
-/
import proofs.«151123_j30434138259836_2_alg».proof.Proof.Tile
import proofs.«151123_j30434138259836_2_alg».proof.Proof.Pieces
import proofs.«151123_j30434138259836_2_alg».proof.Proof.Blocks
import proofs.«151123_j30434138259836_2_alg».proof.Proof.Spec
import proofs.«151123_j30434138259836_2_alg».proof.Proof.LibBlockRuns

noncomputable section

open scoped BigOperators

namespace Cert.KernelIdeal.Rows

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ)

/-- The four argument arrays on core c, and the vector of reciprocal denominators the lines before the call compute. -/
abbrev argA (c : Dev nD) : SimLoss.Mat.Idx → EReal := m ((c : Thread nD τ).loc main_arg0)
abbrev argB (c : Dev nD) : SimLoss.Mat.Idx → EReal := m ((c : Thread nD τ).loc main_arg1)
abbrev argLs (c : Dev nD) : SimLoss.Vec1.Idx → BitVec 32 := m ((c : Thread nD τ).loc main_arg2)
abbrev argLt (c : Dev nD) : SimLoss.Vec1.Idx → BitVec 32 := m ((c : Thread nD τ).loc main_arg3)
abbrev recipV (c : Dev nD) : SimLoss.Vec1.Idx → EReal := recip (F := Ideal) (argA m c) (argB m c)

/-- One loss entry of array row R against target row Q, the similarity multiplied by the row's reciprocal. -/
abbrev pairLoss (c : Dev nD) (R Q : Fin 8192) : EReal :=
  SimLoss.entry (IntOp.cmpi .eq (argLs m c (ix1 R)) (argLt m c (ix1 Q)))
    (SimLoss.sim (argA m c) (argB m c) R Q * recipV m c (ix1 R))

/-- The row sums of the tile of point t: row r summed over the point's 1024 columns. -/
def tileSum (c : Dev nD) (t : Fin cfg0.N) (r : Fin 1024) : EReal :=
  ∑ q : Fin 1024, pairLoss m c (rowIdx t r) (colIdx t q)

/-- The accumulating payload on the blocks of point t adds the tile's row sums to the running column. -/
theorem pay_at (c : Dev nD) (t : Fin cfg0.N) (xo : Vec Ideal S1024x1 .f32) (r : Fin 1024) :
    k0_pay2 (F := Ideal) (iblk m c 0 t) (iblk m c 1 t) (iblk m c 2 t) (iblk m c 3 t) (iblk m c 4 t) xo (ix2 r (0 : Fin 1))
      = xo (ix2 r (0 : Fin 1)) + tileSum m c t r := by
  refine (Tile.pay_apply (iblk m c 0 t) (iblk m c 1 t) (iblk m c 2 t) (iblk m c 3 t) (iblk m c 4 t) xo r).trans ?_
  refine congrArg (_ + ·) (Finset.sum_congr rfl fun q _ => ?_)
  rw [lsrc_apply, ltgt_apply, recip_apply]
  refine congrArg (SimLoss.entry _) (congrArg (· * _) (Finset.sum_congr rfl fun k _ => ?_))
  rw [src_apply, tgt_apply]

/-- At the first point of a row block the column is the zero column plus the tile's row sums. -/
theorem col_start (c : Dev nD) (t : Fin cfg0.N) (h0 : t.val % 8 = 0) (r : Fin 1024) :
    outsAt0 m c t.val t.isLt (ix2 r (0 : Fin 1)) = 0 + tileSum m c t r := by
  rw [outsAt0_A m c t h0]
  refine (congrFun (Pieces.out_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0)
    (iblk m c 0 t) (iblk m c 1 t) (iblk m c 2 t) (iblk m c 3 t) (iblk m c 4 t)) (ix2 r (0 : Fin 1))).trans ?_
  rw [pay_at]
  exact congrArg (· + _) Ideal.ofBits_zero_f32

/-- At every other point it is the column of the point before plus the tile's row sums. -/
theorem col_step (c : Dev nD) (t : Fin cfg0.N) (h0 : ¬t.val % 8 = 0) (r : Fin 1024) :
    outsAt0 m c t.val t.isLt (ix2 r (0 : Fin 1))
      = outsAt0 m c (t.val - 1) (Nat.lt_of_le_of_lt (Nat.sub_le _ _) t.isLt) (ix2 r (0 : Fin 1)) + tileSum m c t r := by
  rw [outsAt0_B m c t h0]
  refine (congrFun (Pieces.out_B (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h))
    (iblk m c 0 t) (iblk m c 1 t) (iblk m c 2 t) (iblk m c 3 t) (iblk m c 4 t)
    (outsAt0 m c (t.val - 1) (Nat.lt_of_le_of_lt (Nat.sub_le _ _) t.isLt))) (ix2 r (0 : Fin 1))).trans ?_
  rw [pay_at]

/-- Row r of the column after position n, and the tile's row sum there, as sequences over the positions. -/
def colAt (c : Dev nD) (r : Fin 1024) (n : ℕ) : EReal :=
  if h : n < cfg0.N then outsAt0 m c n h (ix2 r (0 : Fin 1)) else 0
def tileAt (c : Dev nD) (r : Fin 1024) (n : ℕ) : EReal :=
  if h : n < cfg0.N then tileSum m c ⟨n, h⟩ r else 0

/-- WHEN IT IS WRITTEN BACK (the last point of a row block) row r of the column is the whole loss of its array row. -/
theorem col_closed (c : Dev nD) (t : Fin cfg0.N) (h7 : t.val % 8 = 7) (r : Fin 1024) :
    outsAt0 m c t.val t.isLt (ix2 r (0 : Fin 1))
      = SimLoss.rowLossMul (argA m c) (argB m c) (argLs m c) (argLt m c) (recipV m c) (rowIdx t r) := by
  have hN : cfg0.N = 64 := N_0
  have ht := tlt t
  have h0 : ∀ n < 64, n % 8 = 0 → colAt m c r n = 0 + tileAt m c r n := by
    intro n hn hm
    have hn' : n < cfg0.N := hn.trans_eq hN.symm
    unfold colAt tileAt
    rw [dif_pos hn', dif_pos hn']
    exact col_start m c ⟨n, hn'⟩ hm r
  have hs : ∀ n < 64, n % 8 ≠ 0 → colAt m c r n = colAt m c r (n - 1) + tileAt m c r n := by
    intro n hn hm
    have hn' : n < cfg0.N := hn.trans_eq hN.symm
    have hp' : n - 1 < cfg0.N := Nat.lt_of_le_of_lt (Nat.sub_le _ _) hn'
    unfold colAt tileAt
    rw [dif_pos hn', dif_pos hn', dif_pos hp']
    exact col_step m c ⟨n, hn'⟩ hm r
  have hc : 8 * (t.val / 8) + (8 - 1) < 64 := by omega
  have he := BlockRuns.run_end (by norm_num : 0 < 8) 64 (colAt m c r) (tileAt m c r) h0 hs (t.val / 8) hc
  have hte : 8 * (t.val / 8) + (8 - 1) = t.val := by omega
  rw [hte] at he
  have hcol : colAt m c r t.val = outsAt0 m c t.val t.isLt (ix2 r (0 : Fin 1)) := by
    unfold colAt
    rw [dif_pos t.isLt]
  rw [← hcol, he]
  unfold SimLoss.rowLossMul
  refine Eq.trans ?_ (SimLoss.sum_col_blocks fun Q => pairLoss m c (rowIdx t r) Q)
  refine Finset.sum_congr rfl fun i _ => ?_
  have hi := i.isLt
  have hlt : 8 * (t.val / 8) + i.val < cfg0.N := (show 8 * (t.val / 8) + i.val < 64 by omega).trans_eq hN.symm
  unfold tileAt
  rw [dif_pos hlt]
  unfold tileSum
  refine Finset.sum_congr rfl fun q _ => ?_
  have e1 : rowIdx ⟨8 * (t.val / 8) + i.val, hlt⟩ r = rowIdx t r := Fin.ext (by
    show 1024 * ((8 * (t.val / 8) + i.val) / 8) + r.val = 1024 * (t.val / 8) + r.val
    omega)
  have e2 : colIdx ⟨8 * (t.val / 8) + i.val, hlt⟩ q = ⟨1024 * i.val + q.val, by have := q.isLt; omega⟩ := Fin.ext (by
    show 1024 * ((8 * (t.val / 8) + i.val) % 8) + q.val = 1024 * i.val + q.val
    omega)
  rw [e1, e2]

end Cert.KernelIdeal.Rows

end
-- ==== Proof.KernelValue.lean ====
/-
  The kernel's result: the [8192, 1] array of row losses the call writes, and the total the last line forms.

  The output column of a row block is written back once, after the block's eighth point, when row r of it holds
  the whole loss of array row 1024 · (t / 8) + r.  The eight write-backs tile the [8192, 1] result array (array
  row R lies in the block written at point 8 · (R / 1024) + 7), so after the call the array holds every row's
  loss; the line after the call sums the array into the zero.
-/
import proofs.«151123_j30434138259836_2_alg».proof.Proof.Accum
import Idealize.ShloMosaic.Lib.Pipeline.Value
import Idealize.ShloMosaic.Lib.StableHlo.Run
import Idealize.ShloMosaic.PureOps.Ideal.Laws

noncomputable section

open scoped BigOperators

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (m : (ℓ : Loc nD τ sig) → Buf (Elt Ideal) ℓ) (ρ : Dev nD → PrngReg)

/-- The array of row losses: entry (R, 0) is the loss of row R. -/
def rowsArr (c : Dev nD) : S8192x1.Idx → EReal := fun i =>
  SimLoss.rowLossMul (argA m c) (argB m c) (argLs m c) (argLt m c) (recipV m c) (i 0)

/-- What the write-back at the last point of a row block writes is that block of the array of row losses. -/
theorem flushed_eq (c : Dev nD) (t : Fin cfg0.N) (hf : (cfg0.win 5).flush t = true) :
    (dats m 0 c).flushed 5 t = ((cfg0.win 5).blk t).view.read (Elt Ideal) (rowsArr m c) := by
  have h7 : t.val % 8 = 7 := (flush0_5 t).mp hf
  obtain ⟨-, -, -, -, -, -, -, -, -, -, e0, e1⟩ := idx_facts t
  show (cfg0.win 5).cut (grid0.coords t) ((dats m 0 c).after 5 t) = _
  rw [after0_5]
  funext y
  obtain ⟨r, u, rfl⟩ : ∃ (r : Fin 1024) (u : Fin 1), y = ix2 r u := ⟨y 0, y 1, eq_ix2 y⟩
  obtain rfl : u = 0 := Subsingleton.elim _ _
  rw [View.read_apply]
  show outsAt0 m c t.val t.isLt (ix2 r (0 : Fin 1)) = rowsArr m c (((cfg0.win 5).blk t).view.emb (ix2 r (0 : Fin 1)))
  rw [col_closed m c t h7 r]
  unfold rowsArr
  refine congrArg _ (Fin.ext ?_)
  show 1024 * (t.val / 8) + r.val = win0_5.index t (0 : Fin 2) * 1024 + 1 * r.val
  rw [e0]; omega

/-- An index of the result array is in point t's block iff each coordinate is in the block's range. -/
theorem mem_blk (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v10).slice (win0_5.rect t)).set ↔ _
  rw [View.set_slice_whole, Rect.mem_set_unit]
  exact Iff.rfl

/-- Every row of the result array is written back: row R at the last point of row block R / 1024. -/
theorem covered (c : Dev nD) (i : S8192x1.Idx) :
    ∃ t : Fin cfg0.N, (cfg0.win 5).flush t = true ∧ i ∈ ((cfg0.win 5).blk t).view.set := by
  have hN : cfg0.N = 64 := N_0
  have hi0 : (i 0).val < 8192 := idx2_lt0 i
  have hi1 : (i 1).val < 1 := idx2_lt1 i
  obtain ⟨t, htv⟩ : ∃ t : Fin cfg0.N, t.val = 8 * ((i 0).val / 1024) + 7 :=
    ⟨⟨8 * ((i 0).val / 1024) + 7, (show 8 * ((i 0).val / 1024) + 7 < 64 by omega).trans_eq hN.symm⟩, rfl⟩
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1 ≤ (i 1).val ∧ (i 1).val < win0_5.index t (1 : Fin 2) * 1 + 1
    rw [e1]; omega

/-- After the call the result array holds every row's loss. -/
theorem final (c : Dev nD) : (dats m 0 c).arrAt 5 cfg0.N = rowsArr m c :=
  (dats m 0 c).arrAt_eq_of_cover 5 (rowsArr m c) (flushed_eq m c) (covered c)

/-- The program's result: the array of row losses summed into the zero. -/
def result (c : Dev nD) : S_.Idx → EReal :=
  Host.reduceAdd (F := Ideal) (rowsArr m c) (constant S_ .f32 0x00000000#32) reducesTo_S8192x1_S_d0_1 h_S_

/-- What the line after the call leaves in the result buffer. -/
theorem tail_eq (c : Dev nD) :
    Pipeline.afterTail₀ cfgs (dats m) 0 (V0 m) [hostOps1] c main_v11 = result m c := by
  have e : Pipeline.withArrays spec0 c (V0 m c) (fun w => (dats m 0 c).arrAt w cfg0.N) (Proc.devRef .tc (Pipeline.arrRef spec0 5))
      = rowsArr m c :=
    (Pipeline.withArrays_arr spec0 launch0.win.arr_inj c _ _ 5).trans (final m c)
  unfold Pipeline.afterTail₀
  show StableHlo.after hostOps1 _ (Proc.devRef .tc main_v11) = _
  after_results
  exact congrArg (fun x => Host.reduceAdd (F := Ideal) x (constant S_ .f32 0x00000000#32) reducesTo_S8192x1_S_d0_1 h_S_) e

/-- THE KERNEL'S RUN, READ: every weakly fair execution terminates with the result buffer at the total of the array of
    row losses, the four arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result at its one index: the zero plus the sum over the rows of the rows' losses. -/
theorem result_apply (c : Dev nD) (i : S_.Idx) :
    result m c i = SimLoss.zero
      + ∑ R : Fin 8192, SimLoss.rowLossMul (argA m c) (argB m c) (argLs m c) (argLt m c) (recipV m c) R := by
  unfold result
  simp only [Host.reduceAdd, Ideal.hostReduceAdd_def]
  rw [Ideal.hostReduceAdd_total reducesTo_S8192x1_S_d0_1 (fun b => b.elim0), ValueIdx.sum_idx2]
  refine congrArg₂ (· + ·) rfl (Finset.sum_congr rfl fun R _ => ?_)
  rw [Fin.sum_univ_one]
  rfl

end Cert.KernelIdeal.Rows

end
-- ==== Proof.RefValue.lean ====
/-
  The reference's result read as the loss.

  The reference forms all 8192 × 8192 similarities at once, divides row R by the row's denominator, turns each
  quotient into a loss entry by the two labels, and sums every entry into the zero.  Read index by index, the
  entry at (R, Q) is the spec's entry of sim(R, Q) / d(R), and the sum over all index pairs is the sum over the
  rows of the rows' sums.
-/
import proofs.«151123_j30434138259836_2_alg».proof.Proof.Gen.ReferenceIdeal.Read
import proofs.«151123_j30434138259836_2_alg».proof.Proof.Spec
import Idealize.ShloMosaic.Lib.ValueIdx

noncomputable section

open scoped BigOperators

namespace Cert.ReferenceIdeal.RefValue

open Idealize.ShloMosaic Idealize.ShloMosaic.ValueIdx
open Cert.ReferenceIdeal Cert.ReferenceIdeal.Gen Cert.ReferenceIdeal.Read

/-- One entry of the reference's [8192, 8192] array of losses. -/
theorem loss_apply (x0 x1 : SimLoss.Mat.Idx → EReal) (x2 x3 : SimLoss.Vec1.Idx → BitVec 32) (R Q : Fin 8192) :
    val_main_v19 (F := Ideal) x0 x1 x2 x3 (ix2 R Q)
      = SimLoss.entry (IntOp.cmpi .eq (x2 (ix1 R)) (x3 (ix1 Q)))
          (Ideal.div (SimLoss.sim x0 x1 R Q) (val_main_v6 (F := Ideal) x0 x1 (ix1 R))) := by
  have e1 : idx_main_v10 (idx_main_v12 (ix2 R Q)) = ix1 R := funext fun a => Fin.ext (by match a with | ⟨0, _⟩ => rfl)
  have e2 : idx_main_v11 (idx_main_v13 (ix2 R Q)) = ix1 Q := funext fun a => Fin.ext (by match a with | ⟨0, _⟩ => rfl)
  have e3 : idx_main_v7 (idx_main_v8 (ix2 R Q)) = ix1 R := funext fun a => Fin.ext (by match a with | ⟨0, _⟩ => rfl)
  have e4 : ∀ k : Fin 256, lidx_main_v1 (ix2 R Q) k = ix2 R k := fun k =>
    funext fun a => Fin.ext (by match a with | ⟨0, _⟩ => rfl | ⟨1, _⟩ => rfl)
  have e5 : ∀ k : Fin 256, idx_main_v0 (ridx_main_v1 (ix2 R Q) k) = ix2 Q k := fun k =>
    funext fun a => Fin.ext (by match a with | ⟨0, _⟩ => rfl | ⟨1, _⟩ => rfl)
  rw [val_main_v19_apply, val_main_v14_apply, val_main_v12_apply, val_main_v10_apply, val_main_v13_apply,
    val_main_v11_apply, val_main_v16_apply, val_main_v15_apply, val_main_cst_1_apply, val_main_v18_apply,
    val_main_v17_apply, val_main_cst_2_apply, val_main_v9_apply, val_main_v1_apply, val_main_v8_apply,
    val_main_v7_apply]
  simp only [val_main_v0_apply, e1, e2, e3, e4, e5]
  rfl

/-- The reference's result: the zero plus the sum over the rows of the rows' losses. -/
theorem total_apply (x0 x1 : SimLoss.Mat.Idx → EReal) (x2 x3 : SimLoss.Vec1.Idx → BitVec 32) (i : S_.Idx) :
    val_main_v20 (F := Ideal) x0 x1 x2 x3 i
      = SimLoss.zero + ∑ R : Fin 8192, SimLoss.rowLossDiv x0 x1 x2 x3 (val_main_v6 (F := Ideal) x0 x1) R := by
  rw [val_main_v20_apply, ValueIdx.sum_idx2]
  refine congrArg (SimLoss.zero + ·) (Finset.sum_congr rfl fun R _ => ?_)
  unfold SimLoss.rowLossDiv
  exact Finset.sum_congr rfl fun Q _ => loss_apply x0 x1 x2 x3 R Q

end Cert.ReferenceIdeal.RefValue

end
-- ==== Proof.Pre.lean ====
/-
  What the precondition says of the denominators.

  The precondition is the conjunction of three whole-array tests: every source entry is finite, every target entry
  is finite, and every row's denominator — the product of the row's two sums of squares — is different from zero.
  From the third, the denominator of each row is a nonzero extended real.
-/
import proofs.«151123_j30434138259836_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Idealize.ShloMosaic Cert.Pre_finite_inputs

variable [Facts]

instance : Subsingleton S_.Idx := ⟨fun a b => funext fun d => d.elim0⟩

/-- Under the precondition every row's denominator is nonzero. -/
theorem den_ne_zero (a b : FVec Ideal S8192x256 .f32) (ls lt : IVec S8192 32)
    (h : fn (F := Ideal) a b ls lt = fun _ => 1#1)
    (hr : S8192x256.ReducesTo [1] S8192) (h0 : 0 < S_.numel) (i : S8192.Idx) :
    (mulf (Host.reduceAdd (mulf a a) (constant S_ .f32 0x00000000#32) hr h0)
        (Host.reduceAdd (mulf b b) (constant S_ .f32 0x00000000#32) hr h0) : FVec Ideal S8192 .f32) i ≠ 0 := by
  have h1 := congrFun h ValueIdx.ix0
  dsimp only [fn, fn_part1] at h1
  obtain ⟨-, h2⟩ := IntOp.andi_eq_one.1 h1
  have h3 := Host.reduce_andi_all _ _ _ _ _ h2 i
  have h4 : BitVec.ofBool (decide ((mulf (Host.reduceAdd (mulf a a) (constant S_ .f32 0x00000000#32) hr h0)
        (Host.reduceAdd (mulf b b) (constant S_ .f32 0x00000000#32) hr h0) : FVec Ideal S8192 .f32) i
        ≠ Ideal.ofBits .f32 0x00000000#32)) = 1#1 := h3
  intro hcon
  rw [Ideal.ofBits_zero_f32, decide_eq_false (not_not.mpr hcon)] at h4
  exact absurd h4 (by decide)

end Cert.Pre_finite_inputs.Decode

end
-- ==== Proof.Bridge.lean ====
/-
  The two results are one extended real.

  The kernel's result is the zero plus the sum over the rows of the rows' losses with each similarity multiplied by
  the reciprocal 1 / d(R) of the row's denominator; the reference's is the same with each similarity divided by
  d(R), and the two programs compute d by the same operations of the same arrays.  The precondition makes every
  d(R) nonzero, and off zero the quotient is the product with the reciprocal.
-/
import proofs.«151123_j30434138259836_2_alg».proof.Proof.KernelValue
import proofs.«151123_j30434138259836_2_alg».proof.Proof.RefValue
import proofs.«151123_j30434138259836_2_alg».proof.Proof.Pre
import proofs.«151123_j30434138259836_2_alg».proof.Proof.Gen.Pre_finite_inputs

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelIdeal.Rows

variable (m : (ℓ : Loc nD τ sig) → Buf (Elt Ideal) ℓ)

/-- Under the precondition the kernel's result is the reference's function of the same four arrays. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    result m c = Cert.ReferenceIdeal.Read.val_main_v20 (F := Ideal) (argA m c) (argB m c) (argLs m c) (argLt m c) := by
  have hd : ∀ i, Blocks.den (F := Ideal) (argA m c) (argB m c) i ≠ 0 := fun i =>
    Cert.Pre_finite_inputs.Decode.den_ne_zero (argA m c) (argB m c) (argLs m c) (argLt m c) hpre _ _ i
  funext i
  rw [result_apply, Cert.ReferenceIdeal.RefValue.total_apply]
  refine congrArg (SimLoss.zero + ·) (Finset.sum_congr rfl fun R _ => ?_)
  exact SimLoss.rowLossMul_recip (argA m c) (argB m c) (argLs m c) (argLt m c) (Blocks.den (F := Ideal) (argA m c) (argB m c)) hd R

end Cert.Bridge

end
-- ==== Proof.lean ====
/-
  The claim: the tiled similarity-loss kernel and its plain reference compute one extended real.

  Both programs take a source and a target matrix [8192, 256] and two label vectors.  With
  sim(R, Q) = ∑ₖ source(R, k) · target(Q, k) and d(R) the product of the sums of squares of source row R and target
  row R, the loss is the sum over all pairs (R, Q) of 1 − sim(R, Q) / d(R) where the labels agree and of
  max (sim(R, Q) / d(R)) 0 where they differ.  The reference forms the whole [8192, 8192] array and sums it.  The
  kernel walks an 8 × 8 grid of [1024, 1024] tiles, multiplies each similarity by the reciprocal 1 / d(R) computed
  before the call, sums each tile's rows into a [1024, 1] column carried along the row block, writes the column
  back after the block's eighth tile, and sums the resulting [8192, 1] array.  On the extended reals a sum may be
  regrouped freely, and s · (1 / d) = s / d whenever d ≠ 0 — which the precondition states of every row.

  The three frames are the generated runs; nothing was rewritten by the idealization, so its conjunct is trivial.
-/
import proofs.«151123_j30434138259836_2_alg».proof.Defs
import proofs.«151123_j30434138259836_2_alg».proof.Proof.Gen.Kernel
import proofs.«151123_j30434138259836_2_alg».proof.Proof.Gen.Kernel.Frame
import proofs.«151123_j30434138259836_2_alg».proof.Proof.Gen.KernelIdeal
import proofs.«151123_j30434138259836_2_alg».proof.Proof.Gen.KernelIdeal.Frame
import proofs.«151123_j30434138259836_2_alg».proof.Proof.Gen.ReferenceIdeal
import proofs.«151123_j30434138259836_2_alg».proof.Proof.Gen.ReferenceIdeal.Run
import proofs.«151123_j30434138259836_2_alg».proof.Proof.Gen.ReferenceIdeal.Read
import proofs.«151123_j30434138259836_2_alg».proof.Proof.Gen.Pre_finite_inputs
import proofs.«151123_j30434138259836_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the kernel's total: the kernel's by its run read back, the reference's
    because its composed term is, on arguments that agree and under the precondition, the same extended real. -/
theorem algebraic : Cert.algebraic_KernelIdeal_ReferenceIdeal := by
  intro m ρ m' ρ' hpre hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
